-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x7 : Shape := ⟨2, ![512, 7]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x7 : S_.BroadcastsInDim S512x7 (![] : Fin 0 → Fin S512x7.rank)
  reducesTo_S512x7_S_d0_1 : S512x7.ReducesTo [0, 1] S_

variable [Facts]

def fn {F : FTy → Type} [FloatOps F] (main_arg0 : FVec F S65536x512 .f32) (main_arg1 : FVec F S512x7 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x7 .f32 := Host.absf main_arg1
  let main_cst_0 : FVec F S_ .f32 := constant S_ .f32 0x7F800000#32
  let main_v5 : FVec F S512x7 .f32 := broadcastInDim S512x7 ![] bcast_S_S512x7 main_cst_0
  let main_v6 : IVec S512x7 1 := cmpf .olt main_v4 main_v5
  let main_c_1 : IVec S_ 1 := constantI S_ 1 1#1
  let main_v7 : IVec S_ 1 := (fun x v => Host.reduce IntOp.andi x v reducesTo_S512x7_S_d0_1 h_S_) main_v6 main_c_1
  let main_v8 : IVec S_ 1 := andi main_v3 main_v7
  main_v8
-- ==== Kernel.lean ====
abbrev S65536x512 : Shape := ⟨2, ![65536, 512]⟩
abbrev S512x7 : Shape := ⟨2, ![512, 7]⟩
abbrev S7x512 : Shape := ⟨2, ![7, 512]⟩
abbrev S4096x512 : Shape := ⟨2, ![4096, 512]⟩
abbrev S1x512 : Shape := ⟨2, ![1, 512]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x7, .f32⟩
  | .hbm, ⟨2, _⟩ => ⟨S7x512, .f32⟩
  | .hbm, ⟨3, _⟩ => ⟨S65536x512, .f32⟩
  | .local _ .vmem, ⟨0, _⟩ => ⟨S4096x512, .f32⟩
  | .local _ .vmem, ⟨1, _⟩ => ⟨S4096x512, .f32⟩
  | .local _ .vmem, ⟨2, _⟩ => ⟨S7x512, .f32⟩
  | .local _ .vmem, ⟨3, _⟩ => ⟨S4096x512, .f32⟩
  | .local _ .vmem, ⟨4, _⟩ => ⟨S4096x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x7_S7x512_1_0 : S512x7.Transposes [1, 0] S7x512
  inb_S4096x512_S4096x512_0_0 : ∀ a, (![0, 0] : Fin 2 → Nat) a + S4096x512.size a ≤ S4096x512.size a
  h_S4096x512 : 0 < S4096x512.numel
  inb_S7x512_S1x512_0_0 : ∀ a, (![0, 0] : Fin 2 → Nat) a + S1x512.size a ≤ S7x512.size a
  h_S1x512 : 0 < S1x512.numel
  shapeCasts_S1x512_S512 : S1x512.ShapeCasts S512
  inb_S7x512_S1x512_1_0 : ∀ a, (![1, 0] : Fin 2 → Nat) a + S1x512.size a ≤ S7x512.size a
  inb_S7x512_S1x512_2_0 : ∀ a, (![2, 0] : Fin 2 → Nat) a + S1x512.size a ≤ S7x512.size a
  inb_S7x512_S1x512_3_0 : ∀ a, (![3, 0] : Fin 2 → Nat) a + S1x512.size a ≤ S7x512.size a
  inb_S7x512_S1x512_4_0 : ∀ a, (![4, 0] : Fin 2 → Nat) a + S1x512.size a ≤ S7x512.size a
  inb_S7x512_S1x512_5_0 : ∀ a, (![5, 0] : Fin 2 → Nat) a + S1x512.size a ≤ S7x512.size a
  inb_S7x512_S1x512_6_0 : ∀ a, (![6, 0] : Fin 2 → Nat) a + S1x512.size a ≤ S7x512.size a
  shapeCasts_S512_S1x512 : S512.ShapeCasts S1x512
  broadcasts_S1x512_S4096x512 : S1x512.Broadcasts S4096x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x512.size a ≤ S7x512.size a
  hwx0_1 : ∀ i : grid0.Coords, EltTy.bits .f32 = 32 ∨ (Rect.block (s := S7x512) S7x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S65536x512.size a
  hwx0_2 : ∀ i : grid0.Coords, EltTy.bits .f32 = 32 ∨ (Rect.block (s := S65536x512) S4096x512.size (cc0_transform_2 i) (hinb0_2 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S7x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x7 : Shape := ⟨2, ![512, 7]⟩
abbrev S512x1 : Shape := ⟨2, ![512, 1]⟩
abbrev S512 : Shape := ⟨1, ![512]⟩
abbrev S_ : Shape := ⟨0, ![]⟩
abbrev S1x512 : Shape := ⟨2, ![1, 512]⟩

abbrev nBuf : Space → Nat
  | .hbm => 66
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x7, .f32⟩
  | .hbm, ⟨2, _⟩ => ⟨S512x1, .f32⟩
  | .hbm, ⟨3, _⟩ => ⟨S512, .f32⟩
  | .hbm, ⟨4, _⟩ => ⟨S65536x512, .f32⟩
  | .hbm, ⟨5, _⟩ => ⟨S_, .f32⟩
  | .hbm, ⟨6, _⟩ => ⟨S65536x512, .f32⟩
  | .hbm, ⟨7, _⟩ => ⟨S65536x512, .f32⟩
  | .hbm, ⟨8, _⟩ => ⟨S65536x512, .f32⟩
  | .hbm, ⟨9, _⟩ => ⟨S512x1, .f32⟩
  | .hbm, ⟨10, _⟩ => ⟨S512, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S_, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S512x1, .f32⟩
  | .hbm, ⟨20, _⟩ => ⟨S512, .f32⟩
  | .hbm, ⟨21, _⟩ => ⟨S1x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S512x1, .f32⟩
  | .hbm, ⟨30, _⟩ => ⟨S512, .f32⟩
  | .hbm, ⟨31, _⟩ => ⟨S1x512, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S512x1, .f32⟩
  | .hbm, ⟨40, _⟩ => ⟨S512, .f32⟩
  | .hbm, ⟨41, _⟩ => ⟨S1x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S512x1, .f32⟩
  | .hbm, ⟨50, _⟩ => ⟨S512, .f32⟩
  | .hbm, ⟨51, _⟩ => ⟨S1x512, .f32⟩
  | .hbm, ⟨52, _⟩ => ⟨S65536x512, .f32⟩
  | .hbm, ⟨53, _⟩ => ⟨S65536x512, .f32⟩
  | .hbm, ⟨54, _⟩ => ⟨S65536x512, .f32⟩
  | .hbm, ⟨55, _⟩ => ⟨S_, .f32⟩
  | .hbm, ⟨56, _⟩ => ⟨S65536x512, .f32⟩
  | .hbm, ⟨57, _⟩ => ⟨S65536x512, .f32⟩
  | .hbm, ⟨58, _⟩ => ⟨S65536x512, .f32⟩
  | .hbm, ⟨59, _⟩ => ⟨S512x1, .f32⟩
  | .hbm, ⟨60, _⟩ => ⟨S512, .f32⟩
  | .hbm, ⟨61, _⟩ => ⟨S1x512, .f32⟩
  | .hbm, ⟨62, _⟩ => ⟨S65536x512, .f32⟩
  | .hbm, ⟨63, _⟩ => ⟨S65536x512, .f32⟩
  | .hbm, ⟨64, _⟩ => ⟨S65536x512, .f32⟩
  | .hbm, ⟨65, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_4 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩

abbrev nD : Nat := 1
abbrev τ : Topo := Topo.v7x

variable {F : FTy → Type} [FloatOps F]

class Facts₀ : Prop where
  slices_S512x7_S512x1_0_0 : S512x7.Slices ![0, 0] S512x1
  shapeCasts_S512x1_S512 : S512x1.ShapeCasts S512
  bcast_S512_S65536x512_1 : S512.BroadcastsInDim S65536x512 (![1] : Fin 1 → Fin S65536x512.rank)
  bcast_S_S65536x512 : S_.BroadcastsInDim S65536x512 (![] : Fin 0 → Fin S65536x512.rank)
  slices_S512x7_S512x1_0_1 : S512x7.Slices ![0, 1] S512x1
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S512x7_S512x1_0_2 : S512x7.Slices ![0, 2] S512x1
  slices_S512x7_S512x1_0_3 : S512x7.Slices ![0, 3] S512x1
  slices_S512x7_S512x1_0_4 : S512x7.Slices ![0, 4] S512x1
  slices_S512x7_S512x1_0_5 : S512x7.Slices ![0, 5] S512x1
  slices_S512x7_S512x1_0_6 : S512x7.Slices ![0, 6] S512x1

variable [Facts₀]

class Facts : Prop extends Facts₀ where

variable [Facts]
-- ==== Proof.Harmonics.lean ====
/-
  The scalar mathematics of the Fourier feature layer, on the extended reals.

  One output entry depends on one entry `x` of the data and on the seven coefficients `a0 … a6` of its column:

      x + (a0 + sin x · a1 + cos x · a2 + sin 2x · a3 + cos 2x · a4 + sin 3x · a5 + cos 3x · a6).

  The kernel evaluates only `sin x` and `cos x` and builds the higher harmonics by the angle-addition formulas
      sin 2x = (2 · sin x) · cos x,          cos 2x = cos x · cos x − sin x · sin x,
      sin 3x = sin x · cos 2x + cos x · sin 2x,   cos 3x = cos x · cos 2x − sin x · sin 2x
  (`kernelTerm`); the reference applies sine and cosine to `1 · x`, `2 · x`, `3 · x` (`refTerm`). Both sums are
  associated the same way, so the two agree as soon as the harmonics agree, and the harmonics agree at every REAL `x`
  (`kernelTerm_eq_refTerm`): there sine and cosine are the real functions and the angle-addition formulas are
  `Real.sin_add` and `Real.cos_add`. Nothing is asked of the coefficients: each multiplies equal factors on the two sides.
-/
import Idealize.ShloMosaic.PureOps.Ideal
import Mathlib.Analysis.SpecialFunctions.Trigonometric.Basic

noncomputable section

namespace Cert.Harmonics

open Idealize.ShloMosaic

/-- The float `1.0` denotes the real `1`. -/
theorem ofBits_one : Ideal.ofBits .f32 0x3F800000#32 = ((1 : ℝ) : EReal) := by
  simp [Ideal.ofBits, Ideal.ieee, -EReal.coe_mul]; norm_num

/-- The float `2.0` denotes the real `2`. -/
theorem ofBits_two : Ideal.ofBits .f32 0x40000000#32 = ((2 : ℝ) : EReal) := by
  simp [Ideal.ofBits, Ideal.ieee, -EReal.coe_mul]; norm_num

/-- The float `3.0` denotes the real `3`. -/
theorem ofBits_three : Ideal.ofBits .f32 0x40400000#32 = ((3 : ℝ) : EReal) := by
  simp [Ideal.ofBits, Ideal.ieee, -EReal.coe_mul]; norm_num

/-- One output entry as the kernel computes it: the second and third harmonics from `sin x` and `cos x` by angle addition. -/
def kernelTerm (x a0 a1 a2 a3 a4 a5 a6 : Ideal .f32) : Ideal .f32 :=
  FloatOps.addf x (FloatOps.addf (FloatOps.addf (FloatOps.addf (FloatOps.addf (FloatOps.addf (FloatOps.addf a0
    (FloatOps.mulf (FloatOps.sin x) a1))
    (FloatOps.mulf (FloatOps.cos x) a2))
    (FloatOps.mulf (FloatOps.mulf (FloatOps.mulf (FloatOps.ofBits .f32 0x40000000#32) (FloatOps.sin x)) (FloatOps.cos x)) a3))
    (FloatOps.mulf (FloatOps.subf (FloatOps.mulf (FloatOps.cos x) (FloatOps.cos x)) (FloatOps.mulf (FloatOps.sin x) (FloatOps.sin x))) a4))
    (FloatOps.mulf (FloatOps.addf
        (FloatOps.mulf (FloatOps.sin x) (FloatOps.subf (FloatOps.mulf (FloatOps.cos x) (FloatOps.cos x)) (FloatOps.mulf (FloatOps.sin x) (FloatOps.sin x))))
        (FloatOps.mulf (FloatOps.cos x) (FloatOps.mulf (FloatOps.mulf (FloatOps.ofBits .f32 0x40000000#32) (FloatOps.sin x)) (FloatOps.cos x)))) a5))
    (FloatOps.mulf (FloatOps.subf
        (FloatOps.mulf (FloatOps.cos x) (FloatOps.subf (FloatOps.mulf (FloatOps.cos x) (FloatOps.cos x)) (FloatOps.mulf (FloatOps.sin x) (FloatOps.sin x))))
        (FloatOps.mulf (FloatOps.sin x) (FloatOps.mulf (FloatOps.mulf (FloatOps.ofBits .f32 0x40000000#32) (FloatOps.sin x)) (FloatOps.cos x)))) a6))

/-- One output entry as the reference computes it: sine and cosine of `1 · x`, `2 · x`, `3 · x`. -/
def refTerm (x a0 a1 a2 a3 a4 a5 a6 : Ideal .f32) : Ideal .f32 :=
  FloatOps.addf x (FloatOps.addf (FloatOps.addf (FloatOps.addf (FloatOps.addf (FloatOps.addf (FloatOps.addf a0
    (FloatOps.mulf (FloatOps.hostUnary .sin (FloatOps.mulf (FloatOps.ofBits .f32 0x3F800000#32) x)) a1))
    (FloatOps.mulf (FloatOps.hostUnary .cos (FloatOps.mulf (FloatOps.ofBits .f32 0x3F800000#32) x)) a2))
    (FloatOps.mulf (FloatOps.hostUnary .sin (FloatOps.mulf (FloatOps.ofBits .f32 0x40000000#32) x)) a3))
    (FloatOps.mulf (FloatOps.hostUnary .cos (FloatOps.mulf (FloatOps.ofBits .f32 0x40000000#32) x)) a4))
    (FloatOps.mulf (FloatOps.hostUnary .sin (FloatOps.mulf (FloatOps.ofBits .f32 0x40400000#32) x)) a5))
    (FloatOps.mulf (FloatOps.hostUnary .cos (FloatOps.mulf (FloatOps.ofBits .f32 0x40400000#32) x)) a6))

/-- The second harmonics by angle addition, over the reals. -/
theorem sin_two (r : ℝ) : 2 * Real.sin r * Real.cos r = Real.sin (2 * r) := (Real.sin_two_mul r).symm

theorem cos_two (r : ℝ) : Real.cos r * Real.cos r - Real.sin r * Real.sin r = Real.cos (2 * r) := by
  rw [two_mul, Real.cos_add]

/-- The third harmonics from the first and second: `3r = r + 2r`. -/
theorem sin_three (r : ℝ) :
    Real.sin r * Real.cos (2 * r) + Real.cos r * Real.sin (2 * r) = Real.sin (3 * r) := by
  rw [show (3 : ℝ) * r = r + 2 * r by ring, Real.sin_add]

theorem cos_three (r : ℝ) :
    Real.cos r * Real.cos (2 * r) - Real.sin r * Real.sin (2 * r) = Real.cos (3 * r) := by
  rw [show (3 : ℝ) * r = r + 2 * r by ring, Real.cos_add]

/-- AT A REAL ENTRY the kernel's and the reference's terms are one extended real, whatever the coefficients. -/
theorem kernelTerm_eq_refTerm (r : ℝ) (a0 a1 a2 a3 a4 a5 a6 : Ideal .f32) :
    kernelTerm ((r : EReal) : Ideal .f32) a0 a1 a2 a3 a4 a5 a6 = refTerm ((r : EReal) : Ideal .f32) a0 a1 a2 a3 a4 a5 a6 := by
  unfold kernelTerm refTerm
  simp only [Ideal.addf_def, Ideal.mulf_def, Ideal.subf_def, Ideal.sin_def, Ideal.cos_def, Ideal.hostUnary_sin_def,
    Ideal.hostUnary_cos_def, Ideal.ofBits_def, ofBits_one, ofBits_two, ofBits_three, Ideal.sin_coe, Ideal.cos_coe,
    ← EReal.coe_mul, ← EReal.coe_sub, ← EReal.coe_add, one_mul, sin_two, cos_two, sin_three, cos_three]

/-! ## The whole arrays -/

/-- The data array's shape, [65536, 512]. -/
abbrev SX : Shape := ⟨2, ![65536, 512]⟩
/-- The coefficient array's shape, [512, 7]: one row of seven coefficients per column of the data. -/
abbrev SC : Shape := ⟨2, ![512, 7]⟩

/-- Where coefficient `k` of data entry `i = [i₀, i₁]` sits in the coefficient array: at `[i₁, k]`. -/
def coef (i : SX.Idx) (k : Fin 7) : SC.Idx := fun a => match a with
  | ⟨0, _⟩ => ⟨(i 1).val, (i 1).isLt⟩
  | ⟨1, _⟩ => ⟨k.val, k.isLt⟩

/-- The result array as the reference computes it, entry by entry. -/
def refArray (x : SX.Idx → Ideal .f32) (co : SC.Idx → Ideal .f32) : SX.Idx → Ideal .f32 := fun i =>
  refTerm (x i) (co (coef i 0)) (co (coef i 1)) (co (coef i 2)) (co (coef i 3)) (co (coef i 4)) (co (coef i 5)) (co (coef i 6))

/-- The result array as the kernel computes it, entry by entry. -/
def kernelArray (x : SX.Idx → Ideal .f32) (co : SC.Idx → Ideal .f32) : SX.Idx → Ideal .f32 := fun i =>
  kernelTerm (x i) (co (coef i 0)) (co (coef i 1)) (co (coef i 2)) (co (coef i 3)) (co (coef i 4)) (co (coef i 5)) (co (coef i 6))

/-- On data whose every entry is a real number the two arrays are equal. -/
theorem kernelArray_eq_refArray (x : SX.Idx → Ideal .f32) (co : SC.Idx → Ideal .f32)
    (hx : ∀ i, ∃ r : ℝ, x i = ((r : EReal) : Ideal .f32)) : kernelArray x co = refArray x co := by
  funext i
  obtain ⟨r, hr⟩ := hx i
  unfold kernelArray refArray
  rw [hr]
  exact kernelTerm_eq_refTerm r _ _ _ _ _ _ _

end Cert.Harmonics

end
-- ==== Proof.KernelEntries.lean ====
/-
  The kernel's result array, entry by entry.

  The pallas_call walks the [65536, 512] data in 16 blocks of 4096 rows; every point also sees the whole [7, 512] array
  of TRANSPOSED coefficients (a host transpose of the [512, 7] argument made before the call). At block entry `[y₀, y₁]`
  the body reads the data entry under it and row `k` of the transposed coefficients at column `y₁` — that is, coefficient
  `[y₁, k]` of the argument — for `k = 0 … 6`, and stores `Cert.Harmonics.kernelTerm` of these eight numbers
  (`payload_apply`, `out_apply`). Point `t` writes its block back over rows `4096 t … 4096 t + 4095` (`flushed_eq`), the
  sixteen blocks tile the result (`cover`), so the result array after the run is `Cert.Harmonics.kernelArray` of the two
  arguments (`final`, `run`).
-/
import proofs.«150582_j42958262895274_2_alg».proof.Proof.Gen.KernelIdeal.Frame
import proofs.«150582_j42958262895274_2_alg».proof.Proof.Harmonics
import Idealize.ShloMosaic.Lib.Pipeline.Value
import Idealize.ShloMosaic.Lib.ValueIdx
import Idealize.ShloMosaic.Lib.StableHlo.Run

noncomputable section

namespace Cert.KernelIdeal.Entries

open Cert.KernelIdeal Cert.KernelIdeal.Gen Idealize.ShloMosaic Idealize.ShloMosaic.TcCoe Idealize.SL.Sem
open Idealize.ShloMosaic.Pipeline (Dat)
open Cert.Harmonics (kernelTerm kernelArray coef)

/-! ## The body's stored value at a block entry -/

/-- The one entry of a [1, 512] row that sits over block entry `y`: column `y₁`. -/
def rowIdx (y : S4096x512.Idx) : S1x512.Idx := fun a => match a with
  | ⟨0, _⟩ => ⟨0, Nat.one_pos⟩
  | ⟨1, _⟩ => ⟨(y 1).val, (y 1).isLt⟩

/-- The same column as an index of a vector of 512. -/
def colIdx (y : S4096x512.Idx) : S512.Idx := fun a => match a with
  | ⟨0, _⟩ => ⟨(y 1).val, (y 1).isLt⟩

/-- A [1, 512] row flattened to 512, reshaped back and broadcast down the 4096 rows of the block reads, at `y`, the row
    at column `y₁`. -/
theorem rowBroadcast_apply (P : Vec Ideal S1x512 .f32) (y : S4096x512.Idx) :
    broadcastTo S4096x512 (shapeCast S1x512 (shapeCast S512 P shapeCasts_S1x512_S512) shapeCasts_S512_S1x512)
      broadcasts_S1x512_S4096x512 y = P (rowIdx y) := by
  refine (broadcastTo_apply _ _ y (rowIdx y) (fun a => ?_)).trans ?_
  · match a with
    | ⟨0, _⟩ => show 0 = (if (1 : Nat) = 1 then 0 else (y 0).val); rw [if_pos rfl]
    | ⟨1, _⟩ => show (y 1).val = (if (512 : Nat) = 1 then 0 else (y 1).val); rw [if_neg (by decide)]
  refine (shapeCast_apply _ _ (rowIdx y) (colIdx y) ?_).trans ?_
  · rw [Shape.rowMajor_val_one, Shape.rowMajor_val_two]; show (y 1).val = 0 * 512 + (y 1).val; omega
  refine shapeCast_apply _ _ (colIdx y) (rowIdx y) ?_
  rw [Shape.rowMajor_val_two, Shape.rowMajor_val_one]; show 0 * 512 + (y 1).val = (y 1).val; omega

/-- The stored vector at block entry `y`, over any loaded data block `P0` and coefficient rows `P1 … P7`: the kernel's
    term of the data entry and of the seven rows at column `y₁`. -/
theorem payload_apply (P0 : Vec Ideal S4096x512 .f32) (P1 P2 P3 P4 P5 P6 P7 : Vec Ideal S1x512 .f32) (y : S4096x512.Idx) :
    k0_pay1 P0 (k0_pay2 P5) (k0_pay3 P6) (k0_pay4 P7) (k0_pay8 P0) (k0_pay9 P0) (k0_pay10 P0) (k0_pay11 P0 P1 P2 P3)
        (k0_pay12 P0 P4) y
      = kernelTerm (P0 y) (P1 (rowIdx y)) (P2 (rowIdx y)) (P3 (rowIdx y)) (P4 (rowIdx y)) (P5 (rowIdx y)) (P6 (rowIdx y))
          (P7 (rowIdx y)) := by
  rw [← rowBroadcast_apply P1 y, ← rowBroadcast_apply P2 y, ← rowBroadcast_apply P3 y, ← rowBroadcast_apply P4 y,
    ← rowBroadcast_apply P5 y, ← rowBroadcast_apply P6 y, ← rowBroadcast_apply P7 y]
  rfl

theorem hz : (![0, 0] : Fin 2 → Nat) = fun _ => 0 := funext fun a => by fin_cases a <;> rfl

/-- What the body leaves in the output block, at entry `y`, over any data block `x0` and transposed coefficients `x1`:
    row `k` of `x1` is read through the rectangle at offset `[k, 0]`. -/
theorem out_apply (x0 : Vec Ideal S4096x512 .f32) (x1 : Vec Ideal S7x512 .f32) (y : S4096x512.Idx) :
    out0_2 x0 x1 y = kernelTerm (x0 y) (x1 (r0_1.idx (rowIdx y))) (x1 (r0_2.idx (rowIdx y))) (x1 (r0_3.idx (rowIdx y)))
      (x1 (r0_4.idx (rowIdx y))) (x1 (r0_5.idx (rowIdx y))) (x1 (r0_6.idx (rowIdx y))) (x1 (r0_7.idx (rowIdx y))) := by
  unfold out0_2
  rw [View.canon_unit_zero hz, payload_apply, View.ld_unit_zero (S := S4096x512) hz]

/-! ## The arrays the region finds -/

variable (m : (ℓ : Loc nD τ sig) → Buf (Elt Ideal) ℓ) (ρ : Dev nD → PrngReg)

/-- The second operand of the call is the host's transpose of the coefficient argument. -/
theorem V_main_v0 (c : Dev nD) :
    (V m c main_v0 : S7x512.Idx → Ideal .f32)
      = transpose S7x512 [1, 0] (m ((c : Thread nD τ).loc main_arg1)) transposes_S512x7_S7x512_1_0 := by
  dsimp only [Gen.V, Gen.hostOps0]; after_results

/-- The printed index maps over the sixteen points: the data and result blocks are block `t` of the rows, all columns; the
    coefficient block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the data block at point `t` is the data argument's entry under entry `y` of the result block at `t`. -/
theorem dataBlock_apply (c : Dev nD) (t : Fin cfg0.N) (y : S4096x512.Idx) :
    iblk m c 0 t y = m ((c : Thread nD τ).loc main_arg0) (((cfg0.win 2).blk t).view.emb y) := by
  obtain ⟨e0, e1, -, -, e4, e5⟩ := idx_facts t
  show V m c main_arg0 (((cfg0.win 0).blk t).view.emb y) = _
  rw [V_main_arg0]
  refine congrArg _ (funext fun a => Fin.ext ?_)
  match a with
  | ⟨0, _⟩ => show win0_0.index t (0 : Fin 2) * 4096 + 1 * (y 0).val = win0_2.index t (0 : Fin 2) * 4096 + 1 * (y 0).val; rw [e0, e4]
  | ⟨1, _⟩ => show win0_0.index t (1 : Fin 2) * 512 + 1 * (y 1).val = win0_2.index t (1 : Fin 2) * 512 + 1 * (y 1).val; rw [e1, e5]

/-- Entry `z = [k, i₁]` of the coefficient block (the whole transposed array) is coefficient `[i₁, k]` of the argument. -/
theorem coefBlock_apply (c : Dev nD) (t : Fin cfg0.N) (k : Fin 7) (z : S7x512.Idx) (i : S65536x512.Idx)
    (h0 : (z 0).val = k.val) (h1 : (z 1).val = (i 1).val) :
    iblk m c 1 t z = m ((c : Thread nD τ).loc main_arg1) (coef i k) := by
  obtain ⟨-, -, e2, e3, -, -⟩ := idx_facts t
  show V m c main_v0 (((cfg0.win 1).blk t).view.emb z) = _
  rw [V_main_v0]
  refine transpose_apply _ _ _ _ (coef i k) (fun b => ?_)
  match b with
  | ⟨0, _⟩ => show k.val = win0_1.index t (0 : Fin 2) * 7 + 1 * (z 0).val; rw [e2, h0]; omega
  | ⟨1, _⟩ => show (i 1).val = win0_1.index t (1 : Fin 2) * 512 + 1 * (z 1).val; rw [e3, h1]; omega

/-! ## Blocks to the array -/

/-- WHAT POINT `t` WRITES BACK is block `t` of the kernel's array of the two arguments. -/
theorem flushed_eq (c : Dev nD) (t : Fin cfg0.N) :
    (dats m 0 c).flushed 2 t = ((cfg0.win 2).blk t).view.read (Elt Ideal)
      (kernelArray (m ((c : Thread nD τ).loc main_arg0)) (m ((c : Thread nD τ).loc main_arg1))) := by
  obtain ⟨-, -, -, -, e4, e5⟩ := idx_facts t
  show (cfg0.win 2).cut (grid0.coords t) ((dats m 0 c).after 2 t) = _
  rw [after0_2]
  funext y
  show out0_2 (iblk m c 0 t) (iblk m c 1 t) y
    = kernelArray (m ((c : Thread nD τ).loc main_arg0)) (m ((c : Thread nD τ).loc main_arg1)) (((cfg0.win 2).blk t).view.emb y)
  have hcol : ((((cfg0.win 2).blk t).view.emb y) 1).val = (y 1).val := by
    show win0_2.index t (1 : Fin 2) * 512 + 1 * (y 1).val = (y 1).val; rw [e5]; omega
  rw [out_apply, dataBlock_apply m c t y,
    coefBlock_apply m c t 0 (r0_1.idx (rowIdx y)) (((cfg0.win 2).blk t).view.emb y) rfl (by rw [hcol]; show 0 + 1 * (y 1).val = (y 1).val; omega),
    coefBlock_apply m c t 1 (r0_2.idx (rowIdx y)) (((cfg0.win 2).blk t).view.emb y) rfl (by rw [hcol]; show 0 + 1 * (y 1).val = (y 1).val; omega),
    coefBlock_apply m c t 2 (r0_3.idx (rowIdx y)) (((cfg0.win 2).blk t).view.emb y) rfl (by rw [hcol]; show 0 + 1 * (y 1).val = (y 1).val; omega),
    coefBlock_apply m c t 3 (r0_4.idx (rowIdx y)) (((cfg0.win 2).blk t).view.emb y) rfl (by rw [hcol]; show 0 + 1 * (y 1).val = (y 1).val; omega),
    coefBlock_apply m c t 4 (r0_5.idx (rowIdx y)) (((cfg0.win 2).blk t).view.emb y) rfl (by rw [hcol]; show 0 + 1 * (y 1).val = (y 1).val; omega),
    coefBlock_apply m c t 5 (r0_6.idx (rowIdx y)) (((cfg0.win 2).blk t).view.emb y) rfl (by rw [hcol]; show 0 + 1 * (y 1).val = (y 1).val; omega),
    coefBlock_apply m c t 6 (r0_7.idx (rowIdx y)) (((cfg0.win 2).blk t).view.emb y) rfl (by rw [hcol]; show 0 + 1 * (y 1).val = (y 1).val; omega)]
  rfl

/-- An index of the result array is in point `t`'s block iff each coordinate is in the block's range on its axis. -/
theorem mem_blk (t : Fin cfg0.N) (i : S65536x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v1).slice (win0_2.rect t)).set ↔ _
  rw [View.set_slice_whole, Rect.mem_set_unit]
  exact Iff.rfl

/-- The sixteen blocks tile the result: row `r` is in the block of point `r / 4096`. -/
theorem cover (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  have hN : cfg0.N = 16 := N_0
  refine ⟨⟨(i 0).val / 4096, by rw [hN]; omega⟩, flush0_2 _, ?_⟩
  rw [mem_blk]
  obtain ⟨-, -, -, -, e4, e5⟩ := idx_facts ⟨(i 0).val / 4096, by rw [hN]; omega⟩
  intro a
  match a with
  | ⟨0, _⟩ =>
    show win0_2.index _ (0 : Fin 2) * 4096 ≤ (i 0).val ∧ (i 0).val < win0_2.index _ (0 : Fin 2) * 4096 + 4096
    rw [e4]; show (i 0).val / 4096 * 4096 ≤ (i 0).val ∧ (i 0).val < (i 0).val / 4096 * 4096 + 4096; omega
  | ⟨1, _⟩ =>
    show win0_2.index _ (1 : Fin 2) * 512 ≤ (i 1).val ∧ (i 1).val < win0_2.index _ (1 : Fin 2) * 512 + 512
    rw [e5]; omega

/-- THE RESULT ARRAY after the run is the kernel's array of the two arguments. -/
theorem final (c : Dev nD) : (dats m 0 c).arrAt 2 cfg0.N
    = kernelArray (m ((c : Thread nD τ).loc main_arg0)) (m ((c : Thread nD τ).loc main_arg1)) :=
  (dats m 0 c).arrAt_eq_of_cover 2 _ (fun t _ => flushed_eq m c t) cover

/-- The run, read: the result at the kernel's array of the arguments, the arguments unchanged. -/
theorem run : θ_run defs (onTc (τ := τ) (main (F := Ideal))) ⟨m, fun _ => 0, ρ⟩ fun r => ∀ c : Dev nD,
      r.2.mem ((c : Thread nD τ).loc main_v1)
        = kernelArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Entries

end
-- ==== Proof.ReferenceEntries.lean ====
/-
  The reference's result array, entry by entry.

  The reference slices column `k` out of the [512, 7] coefficient array, reshapes it to a vector of 512 and broadcasts it
  along the rows of the [65536, 512] data: at data entry `[i₀, i₁]` that reads coefficient `[i₁, k]` (`coef_k_eq`). The
  harmonics are the host's sine and cosine of the data scaled by the splatted constants 1, 2, 3. Reading the generated
  stages at an index, one operation after another, the result is `Cert.Harmonics.refArray` of the two arguments.
-/
import proofs.«150582_j42958262895274_2_alg».proof.Proof.Gen.ReferenceIdeal.Read
import proofs.«150582_j42958262895274_2_alg».proof.Proof.Harmonics

noncomputable section

namespace Cert.ReferenceIdeal.Entries

open Cert.ReferenceIdeal Cert.ReferenceIdeal.Gen Idealize.ShloMosaic Idealize.ShloMosaic.TcCoe Idealize.SL.Sem

theorem coef0_eq (i : S65536x512.Idx) : Read.idx_main_v0 (Read.idx_main_v1 (Read.idx_main_v2 (i))) = Cert.Harmonics.coef i 0 :=
  funext fun a => Fin.ext (by
    match a with
    | ⟨0, _⟩ => exact Nat.div_one _
    | ⟨1, _⟩ => rfl)

theorem coef1_eq (i : S65536x512.Idx) : Read.idx_main_v6 (Read.idx_main_v7 (Read.idx_main_v8 (Read.idx_main_v9 (i)))) = Cert.Harmonics.coef i 1 :=
  funext fun a => Fin.ext (by
    match a with
    | ⟨0, _⟩ => exact Nat.div_one _
    | ⟨1, _⟩ => rfl)

theorem coef2_eq (i : S65536x512.Idx) : Read.idx_main_v15 (Read.idx_main_v16 (Read.idx_main_v17 (Read.idx_main_v18 (i)))) = Cert.Harmonics.coef i 2 :=
  funext fun a => Fin.ext (by
    match a with
    | ⟨0, _⟩ => exact Nat.div_one _
    | ⟨1, _⟩ => rfl)

theorem coef3_eq (i : S65536x512.Idx) : Read.idx_main_v24 (Read.idx_main_v25 (Read.idx_main_v26 (Read.idx_main_v27 (i)))) = Cert.Harmonics.coef i 3 :=
  funext fun a => Fin.ext (by
    match a with
    | ⟨0, _⟩ => exact Nat.div_one _
    | ⟨1, _⟩ => rfl)

theorem coef4_eq (i : S65536x512.Idx) : Read.idx_main_v33 (Read.idx_main_v34 (Read.idx_main_v35 (Read.idx_main_v36 (i)))) = Cert.Harmonics.coef i 4 :=
  funext fun a => Fin.ext (by
    match a with
    | ⟨0, _⟩ => exact Nat.div_one _
    | ⟨1, _⟩ => rfl)

theorem coef5_eq (i : S65536x512.Idx) : Read.idx_main_v42 (Read.idx_main_v43 (Read.idx_main_v44 (Read.idx_main_v45 (i)))) = Cert.Harmonics.coef i 5 :=
  funext fun a => Fin.ext (by
    match a with
    | ⟨0, _⟩ => exact Nat.div_one _
    | ⟨1, _⟩ => rfl)

theorem coef6_eq (i : S65536x512.Idx) : Read.idx_main_v51 (Read.idx_main_v52 (Read.idx_main_v53 (Read.idx_main_v54 (i)))) = Cert.Harmonics.coef i 6 :=
  funext fun a => Fin.ext (by
    match a with
    | ⟨0, _⟩ => exact Nat.div_one _
    | ⟨1, _⟩ => rfl)

/-- The last stage of the reference's run, at `Ideal`, is the reference array of the arguments. -/
theorem result_eq (x0 : (⟨S65536x512, .f32⟩ : BufTy).Contents (Elt Ideal)) (x1 : (⟨S512x7, .f32⟩ : BufTy).Contents (Elt Ideal)) :
    Read.val_main_v57 (F := Ideal) x0 x1 = Cert.Harmonics.refArray x0 x1 := by
  funext i
  simp only [Read.val_main_v57_apply, Read.val_main_v56_apply, Read.val_main_v55_apply, Read.val_main_v54_apply, Read.val_main_v53_apply, Read.val_main_v52_apply, Read.val_main_v51_apply, Read.val_main_v50_apply, Read.val_main_v49_apply, Read.val_main_v48_apply, Read.val_main_v47_apply, Read.val_main_v46_apply, Read.val_main_v45_apply, Read.val_main_v44_apply, Read.val_main_v43_apply, Read.val_main_v42_apply, Read.val_main_v41_apply, Read.val_main_v40_apply, Read.val_main_v39_apply, Read.val_main_v38_apply, Read.val_main_v37_apply, Read.val_main_v36_apply, Read.val_main_v35_apply, Read.val_main_v34_apply, Read.val_main_v33_apply, Read.val_main_v32_apply, Read.val_main_v31_apply, Read.val_main_v30_apply, Read.val_main_v29_apply, Read.val_main_v28_apply, Read.val_main_v27_apply, Read.val_main_v26_apply, Read.val_main_v25_apply, Read.val_main_v24_apply, Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, Read.val_main_v10_apply, Read.val_main_v9_apply, Read.val_main_v8_apply, Read.val_main_v7_apply, Read.val_main_v6_apply, Read.val_main_v5_apply, Read.val_main_v4_apply, Read.val_main_v3_apply, Read.val_main_v2_apply, Read.val_main_v1_apply, Read.val_main_v0_apply, Read.val_main_cst_apply, Read.val_main_cst_0_apply, Read.val_main_cst_1_apply, Read.val_main_cst_2_apply, Read.val_main_cst_3_apply, Read.val_main_cst_4_apply]
  rw [coef0_eq, coef1_eq, coef2_eq, coef3_eq, coef4_eq, coef5_eq, coef6_eq]
  rfl

end Cert.ReferenceIdeal.Entries

end
-- ==== Proof.Finite.lean ====
/-
  From the precondition to real data.

  The precondition is the conjunction of two `jnp.all`s: every entry of each input has absolute value below `+∞`. An
  `and`-reduction over all axes that comes out 1 met a 1 at every entry, and on the extended reals `max x (−x) < +∞`
  rules out both infinities, so every entry of the data array is a real number. (The coefficients' half of the
  conjunction is not used: the two programs multiply the same coefficient into equal factors.)
-/
import proofs.«150582_j42958262895274_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Finite

open Idealize.ShloMosaic Cert.Pre_finite_inputs Cert.Pre_finite_inputs.Facts

instance : Subsingleton S_.Idx := ⟨fun a b => funext fun d => d.elim0⟩

/-- The float pattern `0x7F800000` denotes `+∞`. -/
theorem ofBits_inf : Ideal.ofBits .f32 0x7F800000#32 = ⊤ := by
  simp [Ideal.ofBits, Ideal.ieee]

/-- An extended real whose absolute value compares below `+∞` is a real number. -/
theorem real_of_abs_lt_top (x : EReal) (h : Ideal.cmp .olt (max x (-x)) ⊤ = 1#1) : ∃ r : ℝ, x = (r : EReal) := by
  induction x using EReal.rec
  · exfalso; simp [Ideal.cmp] at h
  · exact ⟨_, rfl⟩
  · exfalso; simp [Ideal.cmp] at h

/-- Under the precondition every entry of the first argument is a real number. -/
theorem data_real [Cert.Pre_finite_inputs.Facts] (x0 : FVec Ideal S65536x512 .f32) (x1 : FVec Ideal S512x7 .f32)
    (h : Cert.Pre_finite_inputs.fn (F := Ideal) x0 x1 = fun _ => 1#1) (i : S65536x512.Idx) :
    ∃ r : ℝ, x0 i = ((r : EReal) : Ideal .f32) := by
  have h0 := congrFun h ValueIdx.ix0
  dsimp only [Cert.Pre_finite_inputs.fn] at h0
  obtain ⟨h3, -⟩ := IntOp.andi_eq_one.1 h0
  have hi := Host.reduce_andi_all _ _ _ _ _ h3 i
  have hb : broadcastInDim S65536x512 ![] bcast_S_S65536x512 (constant (F := Ideal) S_ .f32 0x7F800000#32) i
      = Ideal.ofBits .f32 0x7F800000#32 :=
    broadcastInDim_apply _ bcast_S_S65536x512 _ i (fun a => a.elim0) (fun a => a.elim0)
  have hi' : Ideal.cmp .olt (max (x0 i) (-(x0 i)))
      (broadcastInDim S65536x512 ![] bcast_S_S65536x512 (constant (F := Ideal) S_ .f32 0x7F800000#32) i) = 1#1 := hi
  rw [hb, ofBits_inf] at hi'
  exact real_of_abs_lt_top _ hi'

end Cert.Finite

end
-- ==== Proof.lean ====
/-
  A Fourier feature layer, kernel against reference, over the extended reals:

      out[t, d] = x[t, d] + (c[d,0] + Σ_{k=1..3} sin(k·x[t, d]) · c[d, 2k−1] + cos(k·x[t, d]) · c[d, 2k]).

  The reference evaluates `sin` and `cos` at `1·x`, `2·x`, `3·x`. The kernel evaluates them at `x` only and builds the
  second and third harmonics by the angle-addition formulas; it reads the coefficients from a host transpose of `c`, and
  walks the 65536 rows in sixteen blocks. Both programs add the seven terms in the same order, so the claim comes down to
  `sin 2x = 2 sin x cos x`, `cos 2x = cos²x − sin²x`, `sin 3x = sin x cos 2x + cos x sin 2x`,
  `cos 3x = cos x cos 2x − sin x sin 2x`, which hold at every REAL `x` — and the precondition (every input entry finite)
  makes every data entry real.

  Modules: `Harmonics` (the two scalar terms, their equality at a real entry, the two whole arrays), `KernelEntries` (the
  kernel's result array is `kernelArray` of the arguments), `ReferenceEntries` (the reference's is `refArray`), `Finite`
  (the precondition gives real data). Here: the five claims.
-/
import proofs.«150582_j42958262895274_2_alg».proof.Defs
import proofs.«150582_j42958262895274_2_alg».proof.Proof.Gen.Kernel
import proofs.«150582_j42958262895274_2_alg».proof.Proof.Gen.Kernel.Skeleton
import proofs.«150582_j42958262895274_2_alg».proof.Proof.Gen.Kernel.Launch
import proofs.«150582_j42958262895274_2_alg».proof.Proof.Gen.Kernel.Points
import proofs.«150582_j42958262895274_2_alg».proof.Proof.Gen.Kernel.Frame
import proofs.«150582_j42958262895274_2_alg».proof.Proof.Gen.KernelIdeal
import proofs.«150582_j42958262895274_2_alg».proof.Proof.Gen.KernelIdeal.Skeleton
import proofs.«150582_j42958262895274_2_alg».proof.Proof.Gen.KernelIdeal.Launch
import proofs.«150582_j42958262895274_2_alg».proof.Proof.Gen.KernelIdeal.Points
import proofs.«150582_j42958262895274_2_alg».proof.Proof.Gen.KernelIdeal.Frame
import proofs.«150582_j42958262895274_2_alg».proof.Proof.Gen.ReferenceIdeal
import proofs.«150582_j42958262895274_2_alg».proof.Proof.Gen.ReferenceIdeal.Run
import proofs.«150582_j42958262895274_2_alg».proof.Proof.Gen.ReferenceIdeal.Read
import proofs.«150582_j42958262895274_2_alg».proof.Proof.Gen.Pre_finite_inputs
import proofs.«150582_j42958262895274_2_alg».proof.Proof.Harmonics
import proofs.«150582_j42958262895274_2_alg».proof.Proof.KernelEntries
import proofs.«150582_j42958262895274_2_alg».proof.Proof.ReferenceEntries
import proofs.«150582_j42958262895274_2_alg».proof.Proof.Finite
import Idealize.ShloMosaic.Adequacy
import Idealize.ShloMosaic.Init

noncomputable section

namespace Cert.Proof

open Idealize.ShloMosaic Idealize.SL.Sem

/-- The word-level kernel runs and leaves its arguments as they were (the generated frame). -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the reference's array of the arguments: the reference by reading its stages at an entry, the
    kernel because its own array — harmonics by angle addition — equals it wherever the data are real, which the
    precondition gives. -/
theorem algebraic : Cert.algebraic_KernelIdeal_ReferenceIdeal := by
  intro m ρ m' ρ' hpre hagree
  refine ⟨fun c => Cert.Harmonics.refArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Entries.run m ρ)
    exact Cert.Harmonics.kernelArray_eq_refArray _ _ (Cert.Finite.data_real _ _ (hpre c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v57_eq, Cert.ReferenceIdeal.Entries.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
